-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S2x1600000 32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S2000x128 : Shape := ⟨2, ![2000, 128]⟩
abbrev S2000x1 : Shape := ⟨2, ![2000, 1]⟩

abbrev nBuf : Space → Nat
  | .hbm => 33
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S_, .f32⟩
  | .hbm, ⟨18, _⟩ => ⟨S100000x128, .f32⟩
  | .hbm, ⟨19, _⟩ => ⟨S1600000x1, .i32⟩
  | .hbm, ⟨20, _⟩ => ⟨S100000x128, .f32⟩
  | .hbm, ⟨21, _⟩ => ⟨S_, .f32⟩
  | .hbm, ⟨22, _⟩ => ⟨S1600000, .f32⟩
  | .hbm, ⟨23, _⟩ => ⟨S_, .f32⟩
  | .hbm, ⟨24, _⟩ => ⟨S100000, .f32⟩
  | .hbm, ⟨25, _⟩ => ⟨S1600000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S1x128, .f32⟩
  | .hbm, ⟨32, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S128_S1x128_1 : S128.BroadcastsInDim S1x128 (![1] : Fin 1 → Fin S1x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 42
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S_, .f32⟩
  | .hbm, ⟨18, _⟩ => ⟨S100000x128, .f32⟩
  | .hbm, ⟨19, _⟩ => ⟨S1600000x1, .i32⟩
  | .hbm, ⟨20, _⟩ => ⟨S100000x128, .f32⟩
  | .hbm, ⟨21, _⟩ => ⟨S_, .f32⟩
  | .hbm, ⟨22, _⟩ => ⟨S1600000, .f32⟩
  | .hbm, ⟨23, _⟩ => ⟨S_, .f32⟩
  | .hbm, ⟨24, _⟩ => ⟨S100000, .f32⟩
  | .hbm, ⟨25, _⟩ => ⟨S1600000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S128x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S_, .f32⟩
  | .hbm, ⟨40, _⟩ => ⟨S100000x128, .f32⟩
  | .hbm, ⟨41, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_cst : Ref sig .tc := ⟨.hbm, 39, rfl⟩
abbrev main_call0_v0 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Layer.lean ====
/-
  One message-passing layer, as ONE function of whole arrays on the extended reals.

  A node `r` mixes its own features with the mean of its in-neighbours' features: with `agg` the
  neighbour sums and `cnt` the (clamped) in-degrees, kept as a column,
      mixed r k = x r k + agg r k / cnt r 0 .
  The layer then applies the linear map `W` (stored output-feature-major: row `q` of `W` holds the
  weights of output feature `q`), adds the bias (kept as a row) and clamps at zero:
      layer r q = max (Σ_k mixed r k · W q k + b 0 q) 0 .
  Entry (r, q) depends on row `r` of `x`, `agg`, `cnt` and on row `q` of `W` and column `q` of `b` only;
  `rowOut` is that dependence, stated over the two rows and the two scalars.  No law of the extended
  reals is used here or later: both programs compute this expression in this arrangement, so no
  finiteness of the inputs is needed.
-/
import Idealize.ShloMosaic.PureOps.Ideal
import Idealize.ShloMosaic.PureOps.Ideal.Laws
import Idealize.ShloMosaic.Lib.ValueIdx

noncomputable section

namespace Cert.GnnLayer

open Idealize.ShloMosaic Idealize.ShloMosaic.ValueIdx
open scoped BigOperators

/-- One output entry from what it depends on: a node's feature row `xr`, its neighbour-sum row `ar`, its
    in-degree `cn`, one output feature's weight row `wr` and bias `bq`. The zero the result is clamped at is
    kept as the f32 word both programs print for it. -/
def rowOut (xr ar : Fin 128 → EReal) (cn : EReal) (wr : Fin 128 → EReal) (bq : EReal) : EReal :=
  max ((∑ k : Fin 128, (xr k + Ideal.div (ar k) cn) * wr k) + bq) (Ideal.ofBits .f32 0x00000000#32)

/-- The layer on whole arrays: features and neighbour sums [100000, 128], in-degrees as a column
    [100000, 1], weights [128, 128], bias as a row [1, 128]. -/
def layer (x agg : (⟨2, ![100000, 128]⟩ : Shape).Idx → EReal) (cnt : (⟨2, ![100000, 1]⟩ : Shape).Idx → EReal)
    (W : (⟨2, ![128, 128]⟩ : Shape).Idx → EReal) (b : (⟨2, ![1, 128]⟩ : Shape).Idx → EReal) :
    (⟨2, ![100000, 128]⟩ : Shape).Idx → EReal :=
  fun i => rowOut (fun k => x (ix2 (i 0) k)) (fun k => agg (ix2 (i 0) k)) (cnt (ix2 (i 0) (0 : Fin 1)))
    (fun k => W (ix2 (i 1) k)) (b (ix2 (0 : Fin 1) (i 1)))

/-- At node `p` and output feature `q`. -/
theorem layer_apply (x agg : (⟨2, ![100000, 128]⟩ : Shape).Idx → EReal) (cnt : (⟨2, ![100000, 1]⟩ : Shape).Idx → EReal)
    (W : (⟨2, ![128, 128]⟩ : Shape).Idx → EReal) (b : (⟨2, ![1, 128]⟩ : Shape).Idx → EReal) (p : Fin 100000) (q : Fin 128) :
    layer x agg cnt W b (ix2 p q)
      = rowOut (fun k => x (ix2 p k)) (fun k => agg (ix2 p k)) (cnt (ix2 p (0 : Fin 1)))
          (fun k => W (ix2 q k)) (b (ix2 (0 : Fin 1) q)) := rfl

end Cert.GnnLayer

end
-- ==== Proof.Payload.lean ====
/-
  What one grid step of the kernel stores, entry by entry.

  A step holds a block of 2000 nodes: their feature rows `x0`, their neighbour-sum rows `x1`, their
  in-degrees as a column `x3`, and — the same at every step — the weights `x9` and the bias row `x13`.
  It stores, at local node `p` and output feature `q`,
      max (Σ_k (x0 p k + x1 p k / x3 p 0) · x9 q k + x13 0 q) 0 ,
  that is `rowOut` of row `p` of the node blocks, row `q` of the weights and entry `q` of the bias.
  The pieces: the in-degree column repeated along the features, and the bias row repeated along the
  nodes, are read at an entry; the weights enter the product transposed, so its entry (k, q) is
  `x9 q k`; the two roundings to bf16 are the identity on the extended reals; the product into a zero
  accumulator is the plain sum over the 128 input features.
-/
import proofs.«140350_j71708773974823_1_alg».proof.Proof.Gen.KernelIdeal.Skeleton
import proofs.«140350_j71708773974823_1_alg».proof.Proof.Layer
import Idealize.ShloMosaic.Lib.Pipeline.Value
import Idealize.ShloMosaic.Lib.ValueIdx
import Idealize.ShloMosaic.PureOps.Ideal.Laws

noncomputable section

namespace Cert.GnnLayer

open Idealize.ShloMosaic Idealize.ShloMosaic.ValueIdx Cert.KernelIdeal Cert.KernelIdeal.Gen
open scoped BigOperators

/-- The in-degree column repeated along the 128 features: entry (p, k) is the column's entry (p, 0). -/
theorem degree_repeated (d : FVec Ideal S2000x1 .f32) (p : Fin 2000) (k : Fin 128) :
    broadcastTo S2000x128 d broadcasts_S2000x1_S2000x128 (ix2 p k) = d (ix2 p (0 : Fin 1)) :=
  broadcastTo_apply d broadcasts_S2000x1_S2000x128 (ix2 p k) (ix2 p (0 : Fin 1)) (fun a => match a with
    | ⟨0, _⟩ => by show p.val = if (2000 : Nat) = 1 then 0 else p.val; rw [if_neg (by decide)]
    | ⟨1, _⟩ => by show 0 = if (1 : Nat) = 1 then 0 else k.val; rw [if_pos rfl])

/-- The bias row repeated along the 2000 nodes: entry (p, q) is the row's entry (0, q). -/
theorem bias_repeated (b : FVec Ideal S1x128 .f32) (p : Fin 2000) (q : Fin 128) :
    broadcastTo S2000x128 b broadcasts_S1x128_S2000x128 (ix2 p q) = b (ix2 (0 : Fin 1) q) :=
  broadcastTo_apply b broadcasts_S1x128_S2000x128 (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])

/-- The weights transposed: entry (k, q) is the weights' entry (q, k). -/
theorem weights_transposed (w : FVec Ideal S128x128 .bf16) (k q : Fin 128) :
    transpose S128x128 [1, 0] w transposes_S128x128_p1_0_S128x128 (ix2 k q) = w (ix2 q k) :=
  transpose_apply [1, 0] w transposes_S128x128_p1_0_S128x128 (ix2 k q) (ix2 q k) (fun b => match b with
    | ⟨0, _⟩ => rfl
    | ⟨1, _⟩ => rfl)

/-- The product's left operand is read at the output entry's node. -/
theorem lhs_row (i : S2000x128.Idx) (c : dot_S2000x128_S128x128_S2000x128_1_0_0_1_n_n.contr.Idx) :
    (dot_S2000x128_S128x128_S2000x128_1_0_0_1_n_n.lhsIdx i c 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- The product's right operand is read at the output entry's feature. -/
theorem rhs_col (i : S2000x128.Idx) (c : dot_S2000x128_S128x128_S2000x128_1_0_0_1_n_n.contr.Idx) :
    (dot_S2000x128_S128x128_S2000x128_1_0_0_1_n_n.rhsIdx i c 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The block's matrix product into a zero accumulator, at (p, q): the sum over the 128 input features of the left
    operand's entry (p, k) times the right operand's entry (k, q). -/
theorem product_at (l : FVec Ideal S2000x128 .bf16) (r : FVec Ideal S128x128 .bf16) (p : Fin 2000) (q : Fin 128) :
    matmul dot_S2000x128_S128x128_S2000x128_1_0_0_1_n_n none l r (constant S2000x128 .f32 0x00000000#32) (ix2 p q)
      = ∑ k : Fin 128, l (ix2 p k) * r (ix2 k q) := by
  simp only [matmul]
  rw [Ideal.matmul_constant_zero_apply,
    ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q)
      ((ValueIdx.contrEquiv1 dot_S2000x128_S128x128_S2000x128_1_0_0_1_n_n 128 rfl rfl).symm k) = ix2 p k :=
    funext fun a => Fin.ext (by
      match a with
      | ⟨0, _⟩ => exact lhs_row _ _
      | ⟨1, _⟩ => exact (dot_S2000x128_S128x128_S2000x128_1_0_0_1_n_n.lhsIdx_val_of_single rfl _ _).trans hk)
  have er : dot_S2000x128_S128x128_S2000x128_1_0_0_1_n_n.rhsIdx (ix2 p q)
      ((ValueIdx.contrEquiv1 dot_S2000x128_S128x128_S2000x128_1_0_0_1_n_n 128 rfl rfl).symm k) = ix2 k q :=
    funext fun a => Fin.ext (by
      match a with
      | ⟨0, _⟩ => exact (dot_S2000x128_S128x128_S2000x128_1_0_0_1_n_n.rhsIdx_val_of_single rfl _ _).trans hk
      | ⟨1, _⟩ => exact rhs_col _ _)
  rw [el, er]

/-- WHAT A STEP STORES at local node `p` and output feature `q`, from the blocks it loaded. -/
theorem payload_at (x0 x1 : Vec Ideal S2000x128 .f32) (x3 : Vec Ideal S2000x1 .f32) (x9 : Vec Ideal S128x128 .f32)
    (x13 : Vec Ideal S1x128 .f32) (p : Fin 2000) (q : Fin 128) :
    k0_pay1 (F := Ideal) x0 x1 x3 x9 x13 (ix2 p q)
      = rowOut (fun k => x0 (ix2 p k)) (fun k => x1 (ix2 p k)) (x3 (ix2 p (0 : Fin 1)))
          (fun k => x9 (ix2 q k)) (x13 (ix2 (0 : Fin 1) q)) := by
  unfold k0_pay1 rowOut
  dsimp only
  rw [maximumf_apply, addf_apply, broadcast_apply, product_at, shapeCast_self, shapeCast_self, shapeCast_self,
    bias_repeated]
  refine congrArg (fun s => max (s + x13 (ix2 (0 : Fin 1) q)) (Ideal.ofBits .f32 0x00000000#32))
    (Finset.sum_congr rfl fun k _ => ?_)
  rw [weights_transposed, truncf_apply, truncf_apply, addf_apply, divf_apply, degree_repeated]

end Cert.GnnLayer

end
-- ==== Proof.Blocks.lean ====
/-
  From what each grid step stores to the whole result array.

  The grid has 50 steps.  Step `t` works on nodes 2000 t … 2000 t + 1999: the blocks of the features, the
  neighbour sums and the in-degree column it loads are those rows of their arrays (`row t p` is local node
  `p`'s place in the arrays), the weights and the bias row are loaded whole, and the block it writes back
  is those rows of the result.  These are facts about places only, so they are stated for an arbitrary
  array in each window's place and used at the arrays the grid found.  What step `t` writes back is then
  rows 2000 t … 2000 t + 1999 of ONE array, `layer` of the five found arrays; node `r` lies in the block of
  step `r / 2000`, so the 50 blocks cover the result, which therefore ends equal to `layer` of the found arrays.
-/
import proofs.«140350_j71708773974823_1_alg».proof.Proof.Gen.KernelIdeal.Value
import proofs.«140350_j71708773974823_1_alg».proof.Proof.Payload
import Idealize.ShloMosaic.Lib.Pipeline.Value
import Idealize.ShloMosaic.Lib.ValueIdx

noncomputable section

namespace Cert.GnnLayer

open Idealize.ShloMosaic Idealize.ShloMosaic.TcCoe Idealize.SL.Sem Idealize.ShloMosaic.ValueIdx
open Cert.KernelIdeal Cert.KernelIdeal.Gen
open Idealize.ShloMosaic.Pipeline (Dat)

variable (m : (ℓ : Loc nD τ sig) → Buf (Elt Ideal) ℓ)

/-- Every load and the store of a step start at the corner of their block. -/
theorem corner : (![0, 0] : Fin 2 → Nat) = fun _ => 0 := funext fun a => by fin_cases a <;> rfl

/-- The blocks of step `t`, window by window: block `t` along the nodes for the three node arrays and the
    result, the only block for the weights and the bias row (decided over the 50 steps). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- There are 50 steps. -/
theorem step_lt (t : Fin cfg0.N) : t.val < 50 := lt_of_lt_of_eq t.isLt N_0

/-- Local node `p` of step `t` is node `2000 t + p`. -/
def row (t : Fin cfg0.N) (p : Fin 2000) : Fin 100000 :=
  ⟨t.val * 2000 + p.val, by have := step_lt t; have := p.isLt; omega⟩

/-! ## Where a step's blocks lie, for any array in the window's place -/

/-- The feature window's block at step `t` is rows `row t ·` of its array. -/
theorem features_rows (t : Fin cfg0.N) (A : S100000x128.Idx → EReal) (p : Fin 2000) (k : Fin 128) :
    ((cfg0.win 0).blk t).view.read (Elt Ideal) A (ix2 p k) = A (ix2 (row t p) k) := by
  show A (((cfg0.win 0).blk t).view.emb (ix2 p k)) = A (ix2 (row t p) k)
  obtain ⟨e0, e1, -⟩ := block_indices t
  refine congrArg A (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

/-- The neighbour-sum window's block at step `t` is rows `row t ·` of its array. -/
theorem sums_rows (t : Fin cfg0.N) (A : S100000x128.Idx → EReal) (p : Fin 2000) (k : Fin 128) :
    ((cfg0.win 1).blk t).view.read (Elt Ideal) A (ix2 p k) = A (ix2 (row t p) k) := by
  show A (((cfg0.win 1).blk t).view.emb (ix2 p k)) = A (ix2 (row t p) k)
  obtain ⟨-, -, e0, e1, -⟩ := block_indices t
  refine congrArg A (funext fun a => Fin.ext ?_)
  match a with
  | ⟨0, _⟩ => show win0_1.index t (0 : Fin 2) * 2000 + 1 * p.val = t.val * 2000 + p.val; rw [e0]; omega
  | ⟨1, _⟩ => show win0_1.index t (1 : Fin 2) * 128 + 1 * k.val = k.val; rw [e1]; omega

/-- The in-degree window's block at step `t` is rows `row t ·` of its column. -/
theorem degrees_rows (t : Fin cfg0.N) (A : S100000x1.Idx → EReal) (p : Fin 2000) :
    ((cfg0.win 2).blk t).view.read (Elt Ideal) A (ix2 p (0 : Fin 1)) = A (ix2 (row t p) (0 : Fin 1)) := by
  show A (((cfg0.win 2).blk t).view.emb (ix2 p (0 : Fin 1))) = A (ix2 (row t p) (0 : Fin 1))
  obtain ⟨-, -, -, -, e0, e1, -⟩ := block_indices t
  refine congrArg A (funext fun a => Fin.ext ?_)
  match a with
  | ⟨0, _⟩ => show win0_2.index t (0 : Fin 2) * 2000 + 1 * p.val = t.val * 2000 + p.val; rw [e0]; omega
  | ⟨1, _⟩ => show win0_2.index t (1 : Fin 2) * 1 + 1 * 0 = 0; rw [e1]

/-- The weights window's block is the whole array at every step. -/
theorem weights_whole (t : Fin cfg0.N) (A : S128x128.Idx → EReal) (q k : Fin 128) :
    ((cfg0.win 3).blk t).view.read (Elt Ideal) A (ix2 q k) = A (ix2 q k) := by
  show A (((cfg0.win 3).blk t).view.emb (ix2 q k)) = A (ix2 q k)
  obtain ⟨-, -, -, -, -, -, e0, e1, -⟩ := block_indices t
  refine congrArg A (funext fun a => Fin.ext ?_)
  match a with
  | ⟨0, _⟩ => show win0_3.index t (0 : Fin 2) * 128 + 1 * q.val = q.val; rw [e0]; omega
  | ⟨1, _⟩ => show win0_3.index t (1 : Fin 2) * 128 + 1 * k.val = k.val; rw [e1]; omega

/-- The bias window's block is the whole row at every step. -/
theorem bias_whole (t : Fin cfg0.N) (A : S1x128.Idx → EReal) (q : Fin 128) :
    ((cfg0.win 4).blk t).view.read (Elt Ideal) A (ix2 (0 : Fin 1) q) = A (ix2 (0 : Fin 1) q) := by
  show A (((cfg0.win 4).blk t).view.emb (ix2 (0 : Fin 1) q)) = A (ix2 (0 : Fin 1) q)
  obtain ⟨-, -, -, -, -, -, -, -, e0, e1, -⟩ := block_indices t
  refine congrArg A (funext fun a => Fin.ext ?_)
  match a with
  | ⟨0, _⟩ => show win0_4.index t (0 : Fin 2) * 1 + 1 * 0 = 0; rw [e0]
  | ⟨1, _⟩ => show win0_4.index t (1 : Fin 2) * 128 + 1 * q.val = q.val; rw [e1]; omega

/-- The result block of step `t` sits at rows `row t ·` of the result. -/
theorem result_place (t : Fin cfg0.N) (p : Fin 2000) (q : Fin 128) :
    ((cfg0.win 5).blk t).view.emb (ix2 p q) = ix2 (row t p) q := by
  obtain ⟨-, -, -, -, -, -, -, -, -, -, e0, e1⟩ := block_indices t
  refine funext fun a => Fin.ext ?_
  match a with
  | ⟨0, _⟩ => show win0_5.index t (0 : Fin 2) * 2000 + 1 * p.val = t.val * 2000 + p.val; rw [e0]; omega
  | ⟨1, _⟩ => show win0_5.index t (1 : Fin 2) * 128 + 1 * q.val = q.val; rw [e1]; omega

/-! ## The blocks a step loads, as rows of the arrays the grid found -/

/-- The feature block a step loads. -/
theorem read_features (c : Dev nD) (t : Fin cfg0.N) (p : Fin 2000) (k : Fin 128) :
    iblk m c 0 t (ix2 p k) = V m c (Pipeline.arrRef spec0 0) (ix2 (row t p) k) := by
  unfold iblk
  exact features_rows t (V m c (Pipeline.arrRef spec0 0)) p k

/-- The neighbour-sum block a step loads. -/
theorem read_sums (c : Dev nD) (t : Fin cfg0.N) (p : Fin 2000) (k : Fin 128) :
    iblk m c 1 t (ix2 p k) = V m c (Pipeline.arrRef spec0 1) (ix2 (row t p) k) := by
  unfold iblk
  exact sums_rows t (V m c (Pipeline.arrRef spec0 1)) p k

/-- The in-degree block a step loads. -/
theorem read_degrees (c : Dev nD) (t : Fin cfg0.N) (p : Fin 2000) :
    iblk m c 2 t (ix2 p (0 : Fin 1)) = V m c (Pipeline.arrRef spec0 2) (ix2 (row t p) (0 : Fin 1)) := by
  unfold iblk
  exact degrees_rows t (V m c (Pipeline.arrRef spec0 2)) p

/-- The weights a step loads. -/
theorem read_weights (c : Dev nD) (t : Fin cfg0.N) (q k : Fin 128) :
    iblk m c 3 t (ix2 q k) = V m c (Pipeline.arrRef spec0 3) (ix2 q k) := by
  unfold iblk
  exact weights_whole t (V m c (Pipeline.arrRef spec0 3)) q k

/-- The bias row a step loads. -/
theorem read_bias (c : Dev nD) (t : Fin cfg0.N) (q : Fin 128) :
    iblk m c 4 t (ix2 (0 : Fin 1) q) = V m c (Pipeline.arrRef spec0 4) (ix2 (0 : Fin 1) q) := by
  unfold iblk
  exact bias_whole t (V m c (Pipeline.arrRef spec0 4)) q

/-- `layer` of the five arrays the grid found, each named by the window that stages it. -/
def found (c : Dev nD) : S100000x128.Idx → EReal :=
  layer (V m c (Pipeline.arrRef spec0 0)) (V m c (Pipeline.arrRef spec0 1)) (V m c (Pipeline.arrRef spec0 2))
    (V m c (Pipeline.arrRef spec0 3)) (V m c (Pipeline.arrRef spec0 4))

/-- WHAT STEP `t` WRITES BACK is its rows of `layer` of the arrays the grid found. -/
theorem flushed_eq (c : Dev nD) (t : Fin cfg0.N) :
    (dats m 0 c).flushed 5 t = ((cfg0.win 5).blk t).view.read (Elt Ideal) (found m c) := by
  rw [Cert.KernelIdeal.Value.flushed5]
  unfold out0_5
  rw [View.canon_unit_zero corner]
  simp only [View.ld_unit_zero (S := S2000x128) corner, View.ld_unit_zero (S := S2000x1) corner,
    View.ld_unit_zero (S := S128x128) corner, View.ld_unit_zero (S := S1x128) corner]
  funext y
  obtain ⟨p, q, rfl⟩ : ∃ (p : Fin 2000) (q : Fin 128), y = ix2 p q := ⟨y 0, y 1, eq_ix2 y⟩
  show k0_pay1 (F := Ideal) (iblk m c 0 t) (iblk m c 1 t) (iblk m c 2 t) (iblk m c 3 t) (iblk m c 4 t) (ix2 p q)
    = layer (V m c (Pipeline.arrRef spec0 0)) (V m c (Pipeline.arrRef spec0 1)) (V m c (Pipeline.arrRef spec0 2))
        (V m c (Pipeline.arrRef spec0 3)) (V m c (Pipeline.arrRef spec0 4)) (((cfg0.win 5).blk t).view.emb (ix2 p q))
  rw [result_place, layer_apply, payload_at]
  have h0 : (fun k : Fin 128 => iblk m c 0 t (ix2 p k)) = fun k => V m c (Pipeline.arrRef spec0 0) (ix2 (row t p) k) :=
    funext fun k => read_features m c t p k
  have h1 : (fun k : Fin 128 => iblk m c 1 t (ix2 p k)) = fun k => V m c (Pipeline.arrRef spec0 1) (ix2 (row t p) k) :=
    funext fun k => read_sums m c t p k
  have h3 : (fun k : Fin 128 => iblk m c 3 t (ix2 q k)) = fun k => V m c (Pipeline.arrRef spec0 3) (ix2 q k) :=
    funext fun k => read_weights m c t q k
  rw [h0, h1, h3, read_degrees, read_bias]

/-- Node `r` lies in the block of step `r / 2000`: the 50 blocks cover the result. -/
theorem blocks_cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ : ∃ t : Fin cfg0.N, t.val = (i 0).val / 2000 :=
    ⟨⟨(i 0).val / 2000, by show (i 0).val / 2000 < grid0.N; rw [N_0]; omega⟩, rfl⟩
  obtain ⟨-, -, -, -, -, -, -, -, -, -, e0, e1⟩ := block_indices t
  refine ⟨t, flush0_5 t, ?_⟩
  show i ∈ ((View.whole main_v22).slice (win0_5.rect t)).set
  rw [View.set_slice_whole, Rect.mem_set_unit]
  intro a
  match a with
  | ⟨0, _⟩ =>
    show win0_5.index t (0 : Fin 2) * 2000 ≤ (i 0).val ∧ (i 0).val < win0_5.index t (0 : Fin 2) * 2000 + 2000
    rw [e0, ht]; omega
  | ⟨1, _⟩ =>
    show win0_5.index t (1 : Fin 2) * 128 ≤ (i 1).val ∧ (i 1).val < win0_5.index t (1 : Fin 2) * 128 + 128
    rw [e1]; omega

/-- THE RESULT ARRAY after the grid: `layer` of the arrays the grid found. -/
theorem result_eq (c : Dev nD) : (dats m 0 c).arrAt 5 cfg0.N = found m c :=
  (dats m 0 c).arrAt_eq_of_cover 5 (found m c) (fun t _ => flushed_eq m c t) blocks_cover

end Cert.GnnLayer

end
-- ==== Proof.Entry.lean ====
/-
  What the kernel's grid finds in its five input arrays.

  Before the grid starts, the program has gathered every edge's source row of `x`, summed the gathered rows
  into their target nodes (`agg`), counted each node's incoming edges, clamped the counts below at one and
  kept them as a column (`cnt`), and kept the bias as a row.  The reference computes the same three arrays by
  the same operations on the same operands, in the same order; they are named here by the reference's own
  stages and never opened: which rows an edge list sums is irrelevant to the comparison, since both programs
  feed the same sums to the same layer.  The features and the weights reach the grid untouched.
-/
import proofs.«140350_j71708773974823_1_alg».proof.Proof.Gen.KernelIdeal.Frame
import proofs.«140350_j71708773974823_1_alg».proof.Proof.Gen.ReferenceIdeal.Read
import Idealize.ShloMosaic.Lib.StableHlo.Run

noncomputable section

namespace Cert.GnnLayer

open Idealize.ShloMosaic Idealize.ShloMosaic.TcCoe Idealize.SL.Sem Cert.KernelIdeal Cert.KernelIdeal.Gen

variable (m : (ℓ : Loc nD τ sig) → Buf (Elt Ideal) ℓ)

/-- The neighbour sums the grid finds are the reference's scatter-add stage of the launch-time features and edges. -/
theorem found_agg (c : Dev nD) :
    (V m c main_v13 : S100000x128.Idx → EReal)
      = Cert.ReferenceIdeal.Read.val_main_v13 (F := Ideal) (m ((c : Thread nD τ).loc main_arg0)) (m ((c : Thread nD τ).loc main_arg1)) := by
  dsimp only [Gen.V, Gen.hostOps0]
  after_results
  rfl

/-- The in-degree column the grid finds is the reference's clamped-count stage of the launch-time edges. -/
theorem found_cnt (c : Dev nD) :
    (V m c main_v20 : S100000x1.Idx → EReal)
      = Cert.ReferenceIdeal.Read.val_main_v20 (F := Ideal) (m ((c : Thread nD τ).loc main_arg1)) := by
  dsimp only [Gen.V, Gen.hostOps0]
  after_results
  rfl

/-- The bias row the grid finds is the reference's row form of the launch-time bias. -/
theorem found_bias (c : Dev nD) :
    (V m c main_v21 : S1x128.Idx → EReal)
      = Cert.ReferenceIdeal.Read.val_main_v26 (F := Ideal) (m ((c : Thread nD τ).loc main_arg3)) := by
  dsimp only [Gen.V, Gen.hostOps0]
  after_results
  rfl

end Cert.GnnLayer

end
-- ==== Proof.KernelRun.lean ====
/-
  The kernel's program, run: its result array ends at `layer` of the launch-time features, the neighbour
  sums and in-degree column computed from the launch-time features and edges, the launch-time weights and
  the bias row — the grid's result is `layer` of what the grid found, and what it found are those arrays.
-/
import proofs.«140350_j71708773974823_1_alg».proof.Proof.Blocks
import proofs.«140350_j71708773974823_1_alg».proof.Proof.Entry

noncomputable section

namespace Cert.GnnLayer

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- `layer` of the arrays the grid found is `layer` of the launch-time arrays and the reference's stages of them. -/
theorem found_layer (c : Dev nD) :
    found m c
      = layer (m ((c : Thread nD τ).loc main_arg0))
          (Cert.ReferenceIdeal.Read.val_main_v13 (F := Ideal) (m ((c : Thread nD τ).loc main_arg0)) (m ((c : Thread nD τ).loc main_arg1)))
          (Cert.ReferenceIdeal.Read.val_main_v20 (F := Ideal) (m ((c : Thread nD τ).loc main_arg1)))
          (m ((c : Thread nD τ).loc main_arg2))
          (Cert.ReferenceIdeal.Read.val_main_v26 (F := Ideal) (m ((c : Thread nD τ).loc main_arg3))) :=
  congr (congr (congr (congr (congrArg layer (V_main_arg0 m c)) (found_agg m c)) (found_cnt m c)) (V_main_arg2 m c))
    (found_bias m c)

/-- Every weakly fair execution of the kernel's program terminates with the result array at `layer` of the
    launch-time arrays and the arguments unchanged. -/
theorem kernel_run : θ_run defs (onTc (τ := τ) (main (F := Ideal))) ⟨m, fun _ => 0, ρ⟩ fun r => ∀ c : Dev nD,
      r.2.mem ((c : Thread nD τ).loc main_v22)
        = layer (m ((c : Thread nD τ).loc main_arg0))
            (Cert.ReferenceIdeal.Read.val_main_v13 (F := Ideal) (m ((c : Thread nD τ).loc main_arg0)) (m ((c : Thread nD τ).loc main_arg1)))
            (Cert.ReferenceIdeal.Read.val_main_v20 (F := Ideal) (m ((c : Thread nD τ).loc main_arg1)))
            (m ((c : Thread nD τ).loc main_arg2))
            (Cert.ReferenceIdeal.Read.val_main_v26 (F := Ideal) (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((result_eq m c).trans (found_layer m c)), (h c).2⟩)
    (Cert.KernelIdeal.Value.run_blocks m ρ)

end Cert.GnnLayer

end
-- ==== Proof.Reference.lean ====
/-
  The reference computes `layer`.

  Read one operation at a time, the reference's result at node `p` and output feature `q` is
      max (Σ_k (x p k + agg p k / cnt p 0) · Wᵀ k q + b 0 q) 0 ,
  with `agg` its scatter-add stage, `cnt` its clamped in-degree column (repeated along the features
  before the division, so read back at (p, 0)), `Wᵀ k q = W q k` its transposed weights and `b` the bias
  row (repeated along the nodes before the addition, so read back at (0, q)).  That is `layer` at (p, q)
  of the features, those two stages, the weights and the bias row — the same expression in the same
  arrangement, so the two sides are syntactically one once every stage is read at its entry.
-/
import proofs.«140350_j71708773974823_1_alg».proof.Proof.Gen.ReferenceIdeal.Read
import proofs.«140350_j71708773974823_1_alg».proof.Proof.Layer

noncomputable section

namespace Cert.GnnLayer

open Idealize.ShloMosaic Idealize.ShloMosaic.ValueIdx Cert.ReferenceIdeal Cert.ReferenceIdeal.Read
open scoped BigOperators

/-- The reference's last stage is `layer` of the features, its neighbour-sum stage, its in-degree column, the weights
    and its bias row. -/
theorem reference_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal)) :
    val_main_v29 (F := Ideal) x0 x1 x2 x3
      = layer x0 (val_main_v13 (F := Ideal) x0 x1) (val_main_v20 (F := Ideal) x1) x2 (val_main_v26 (F := Ideal) x3) := by
  funext i
  obtain ⟨p, q, rfl⟩ : ∃ (p : Fin 100000) (q : Fin 128), i = ix2 p q := ⟨i 0, i 1, eq_ix2 i⟩
  have el : ∀ k : Fin 128, lidx_main_v25 (ix2 p q) k = ix2 p k := fun k => funext fun a => Fin.ext (by
    match a with
    | ⟨0, _⟩ => rfl
    | ⟨1, _⟩ => rfl)
  have er : ∀ k : Fin 128, ridx_main_v25 (ix2 p q) k = ix2 k q := fun k => funext fun a => Fin.ext (by
    match a with
    | ⟨0, _⟩ => rfl
    | ⟨1, _⟩ => rfl)
  have e21 : ∀ k : Fin 128, idx_main_v21 (ix2 p k) = ix2 p (0 : Fin 1) := fun k => funext fun a => Fin.ext (by
    match a with
    | ⟨0, _⟩ => rfl
    | ⟨1, _⟩ => rfl)
  have e24 : ∀ k : Fin 128, idx_main_v24 (ix2 k q) = ix2 q k := fun k => funext fun a => Fin.ext (by
    match a with
    | ⟨0, _⟩ => rfl
    | ⟨1, _⟩ => rfl)
  have e27 : idx_main_v27 (ix2 p q) = ix2 (0 : Fin 1) q := funext fun a => Fin.ext (by
    match a with
    | ⟨0, _⟩ => rfl
    | ⟨1, _⟩ => rfl)
  rw [layer_apply, val_main_v29_apply, val_main_v28_apply, val_main_v25_apply, val_main_v27_apply,
    val_main_call0_v0_apply, val_main_call0_cst_apply, e27]
  unfold rowOut
  refine congrArg (fun s => max (s + val_main_v26 (F := Ideal) x3 (ix2 (0 : Fin 1) q)) (Ideal.ofBits .f32 0x00000000#32))
    (Finset.sum_congr rfl fun k _ => ?_)
  rw [el, er, val_main_v23_apply, val_main_v22_apply, val_main_v21_apply, val_main_v24_apply, e21, e24,
    Ideal.addf_def, Ideal.hostDivf_def]

end Cert.GnnLayer

end
-- ==== Proof.lean ====
/-
  A graph message-passing layer on 100000 nodes with 128 features, against its jnp reference, on the extended reals.

  Both programs first gather, for each of the 1600000 edges, the source node's feature row, sum the gathered rows
  into the edges' target nodes, count each node's incoming edges and clamp the counts below at one.  From there
      out r q = max (Σ_k (x r k + agg r k / cnt r) · W q k + b q) 0 :
  the reference as whole-array operations, the kernel 2000 nodes at a time on a grid of 50 steps, with its matrix
  product's operands rounded to bf16 — the identity on the extended reals.  The two programs apply the same
  operations in the same arrangement, so no algebraic law and no finiteness of the inputs is needed: the proof
  reads each side entry by entry (`Cert.GnnLayer.layer` is the common function of the features, the neighbour sums,
  the in-degree column, the weights and the bias row), shows that the 50 blocks the kernel writes are the rows of
  that one array and cover it, and identifies the arrays the kernel's grid finds with the reference's own
  stages.  The idealized kernel is the kernel's own text read on the extended reals (no rewrite was recorded), so
  the preservation claim is empty; the three programs' termination and untouched arguments are the generated runs.
-/
import proofs.«140350_j71708773974823_1_alg».proof.Defs
import proofs.«140350_j71708773974823_1_alg».proof.Proof.Gen.Kernel
import proofs.«140350_j71708773974823_1_alg».proof.Proof.Gen.Kernel.Skeleton
import proofs.«140350_j71708773974823_1_alg».proof.Proof.Gen.Kernel.Launch
import proofs.«140350_j71708773974823_1_alg».proof.Proof.Gen.Kernel.Points
import proofs.«140350_j71708773974823_1_alg».proof.Proof.Gen.Kernel.Frame
import proofs.«140350_j71708773974823_1_alg».proof.Proof.Gen.KernelIdeal
import proofs.«140350_j71708773974823_1_alg».proof.Proof.Gen.KernelIdeal.Skeleton
import proofs.«140350_j71708773974823_1_alg».proof.Proof.Gen.KernelIdeal.Launch
import proofs.«140350_j71708773974823_1_alg».proof.Proof.Gen.KernelIdeal.Points
import proofs.«140350_j71708773974823_1_alg».proof.Proof.Gen.KernelIdeal.Frame
import proofs.«140350_j71708773974823_1_alg».proof.Proof.Gen.ReferenceIdeal
import proofs.«140350_j71708773974823_1_alg».proof.Proof.Gen.Pre_finite_inputs
import proofs.«140350_j71708773974823_1_alg».proof.Proof.Gen.KernelIdeal.Value
import proofs.«140350_j71708773974823_1_alg».proof.Proof.Gen.ReferenceIdeal.Run
import proofs.«140350_j71708773974823_1_alg».proof.Proof.Gen.ReferenceIdeal.Read
import proofs.«140350_j71708773974823_1_alg».proof.Proof.KernelRun
import proofs.«140350_j71708773974823_1_alg».proof.Proof.Reference
import Idealize.ShloMosaic.Adequacy
import Idealize.ShloMosaic.Init

noncomputable section

namespace Cert.Proof

open Idealize.ShloMosaic Idealize.SL.Sem

/-- The kernel's program as printed terminates without a fault and leaves its arguments as launched. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- So does the reference: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals: nothing to preserve. -/
theorem preserves : Cert.preserves_Kernel_KernelIdeal := trivial

/-- From memories that agree on the four arguments both programs end with the result array at `layer` of the features,
    the neighbour sums, the in-degree column, the weights and the bias row: the kernel by its blocks, the reference
    by its operations read entry by entry. -/
theorem algebraic : Cert.algebraic_KernelIdeal_ReferenceIdeal := by
  intro m ρ m' ρ' _ hagree
  refine ⟨_, Cert.GnnLayer.kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v29_eq _ _ _ _).trans (Cert.GnnLayer.reference_eq _ _ _ _)

/-- The five claims, under the programs' stated side conditions. -/
theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
